-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x6 : Shape := ⟨2, ![8388608, 6]⟩
abbrev S_ : Shape := ⟨0, ![]⟩

class Facts : Prop where
  bcast_S_S8388608x6 : S_.BroadcastsInDim S8388608x6 (![] : Fin 0 → Fin S8388608x6.rank)
  reducesTo_S8388608x6_S_d0_1 : S8388608x6.ReducesTo [0, 1] S_
  h_S_ : 0 < S_.numel

variable [Facts]

def fn {F : FTy → Type} [FloatOps F] (main_arg0 : FVec F S8388608x6 .f32) (main_arg1 : FVec F S8388608x6 .f32) : IVec S_ 1 :=
  let main_v0 : FVec F S8388608x6 .f32 := Host.absf main_arg0
  let main_cst : FVec F S_ .f32 := constant S_ .f32 0x7F800000#32
  let main_v1 : FVec F S8388608x6 .f32 := broadcastInDim S8388608x6 ![] bcast_S_S8388608x6 main_cst
  let main_v2 : IVec S8388608x6 1 := cmpf .olt main_v0 main_v1
  let main_c : IVec S_ 1 := constantI S_ 1 1#1
  let main_v3 : IVec S_ 1 := (fun x v => Host.reduce IntOp.andi x v reducesTo_S8388608x6_S_d0_1 h_S_) main_v2 main_c
  let main_v4 : FVec F S8388608x6 .f32 := Host.absf main_arg1
  let main_cst_0 : FVec F S_ .f32 := constant S_ .f32 0x7F800000#32
  let main_v5 : FVec F S8388608x6 .f32 := broadcastInDim S8388608x6 ![] bcast_S_S8388608x6 main_cst_0
  let main_v6 : IVec S8388608x6 1 := cmpf .olt main_v4 main_v5
  let main_c_1 : IVec S_ 1 := constantI S_ 1 1#1
  let main_v7 : IVec S_ 1 := (fun x v => Host.reduce IntOp.andi x v reducesTo_S8388608x6_S_d0_1 h_S_) main_v6 main_c_1
  let main_v8 : IVec S_ 1 := andi main_v3 main_v7
  main_v8
-- ==== Kernel.lean ====
abbrev S8388608x6 : Shape := ⟨2, ![8388608, 6]⟩
abbrev S8388608 : Shape := ⟨1, ![8388608]⟩
abbrev S262144x6 : Shape := ⟨2, ![262144, 6]⟩
abbrev S262144 : Shape := ⟨1, ![262144]⟩
abbrev S262144x1 : Shape := ⟨2, ![262144, 1]⟩

abbrev nBuf : Space → Nat
  | .hbm => 3
  | .vmem => 6
  | .smem => 0
  | _ => 0

abbrev bufTy : (tb : Table) → Fin (tcTables nBuf tb) → BufTy
  | .hbm, ⟨0, _⟩ => ⟨S8388608x6, .f32⟩
  | .hbm, ⟨1, _⟩ => ⟨S8388608x6, .f32⟩
  | .hbm, ⟨2, _⟩ => ⟨S8388608, .f32⟩
  | .local _ .vmem, ⟨0, _⟩ => ⟨S262144x6, .f32⟩
  | .local _ .vmem, ⟨1, _⟩ => ⟨S262144x6, .f32⟩
  | .local _ .vmem, ⟨2, _⟩ => ⟨S262144x6, .f32⟩
  | .local _ .vmem, ⟨3, _⟩ => ⟨S262144x6, .f32⟩
  | .local _ .vmem, ⟨4, _⟩ => ⟨S262144, .f32⟩
  | .local _ .vmem, ⟨5, _⟩ => ⟨S262144, .f32⟩
  | _, _ => ⟨S8388608x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S262144x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S262144x6_S262144x1_0_4 : ∀ a, (![0, 4] : Fin 2 → Nat) a + S262144x1.size a ≤ S262144x6.size a
  h_S262144x1 : 0 < S262144x1.numel
  inb_S262144x6_S262144x1_0_5 : ∀ a, (![0, 5] : Fin 2 → Nat) a + S262144x1.size a ≤ S262144x6.size a
  shapeCasts_S262144x1_S262144 : S262144x1.ShapeCasts S262144
  inb_S262144_S262144_0 : ∀ a, (![0] : Fin 1 → Nat) a + S262144.size a ≤ S262144.size a
  h_S262144 : 0 < S262144.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144x6.size a ≤ S8388608x6.size a
  hwx0_0 : ∀ i : grid0.Coords, EltTy.bits .f32 = 32 ∨ (Rect.block (s := S8388608x6) S262144x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144x6.size a ≤ S8388608x6.size a
  hwx0_1 : ∀ i : grid0.Coords, EltTy.bits .f32 = 32 ∨ (Rect.block (s := S8388608x6) S262144x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144.size a ≤ S8388608.size a
  hwx0_2 : ∀ i : grid0.Coords, EltTy.bits .f32 = 32 ∨ (Rect.block (s := S8388608) S262144.size (cc0_transform_2 i) (hinb0_2 i)).WholeWords (EltTy.packing .f32)

variable [Facts₀]

abbrev win0_0 : Pipeline.Window sig grid0 :=
  Pipeline.Window.ofSpec (Memref.whole main_arg0) S262144x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S262144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x6 : Shape := ⟨2, ![8388608, 6]⟩
abbrev S8388608x1 : Shape := ⟨2, ![8388608, 1]⟩
abbrev S8388608 : Shape := ⟨1, ![8388608]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8388608x6, .f32⟩
  | .hbm, ⟨1, _⟩ => ⟨S8388608x6, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608, .f32⟩
  | .hbm, ⟨7, _⟩ => ⟨S8388608, .f32⟩
  | .hbm, ⟨8, _⟩ => ⟨S8388608x1, .f32⟩
  | .hbm, ⟨9, _⟩ => ⟨S8388608, .f32⟩
  | .hbm, ⟨10, _⟩ => ⟨S8388608x1, .f32⟩
  | .hbm, ⟨11, _⟩ => ⟨S8388608, .f32⟩
  | .hbm, ⟨12, _⟩ => ⟨S8388608, .f32⟩
  | .hbm, ⟨13, _⟩ => ⟨S8388608, .f32⟩
  | .hbm, ⟨14, _⟩ => ⟨S_, .f32⟩
  | .hbm, ⟨15, _⟩ => ⟨S8388608, .f32⟩
  | .hbm, ⟨16, _⟩ => ⟨S8388608, .i1⟩
  | .hbm, ⟨17, _⟩ => ⟨S_, .f32⟩
  | .hbm, ⟨18, _⟩ => ⟨S8388608, .f32⟩
  | .hbm, ⟨19, _⟩ => ⟨S8388608, .i1⟩
  | .hbm, ⟨20, _⟩ => ⟨S8388608, .i1⟩
  | .hbm, ⟨21, _⟩ => ⟨S_, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S8388608, .f32⟩
  | _, _ => ⟨S8388608x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  slices_S8388608x6_S8388608x1_0_4 : S8388608x6.Slices ![0, 4] S8388608x1
  shapeCasts_S8388608x1_S8388608 : S8388608x1.ShapeCasts S8388608
  slices_S8388608x6_S8388608x1_0_5 : S8388608x6.Slices ![0, 5] S8388608x1
  bcast_S_S8388608 : S_.BroadcastsInDim S8388608 (![] : Fin 0 → Fin S8388608.rank)

variable [Facts₀]

class Facts : Prop extends Facts₀ where

variable [Facts]
-- ==== Proof.Spec.lean ====
/-
  The closeness verdict on two tables of points, row by row.

  Each table has 8388608 rows of six numbers; columns 4 and 5 of a row are a point (x, y) of the plane. Row r of
  the result compares the r-th points of the two tables: when |x₁ - x₂| < 2 and |y₁ - y₂| ≤ 0.1 (the two thresholds
  as their 32-bit float patterns) it is the pattern of 0.99, otherwise the pattern of 0.01. Nothing else of a row is
  read and no two rows meet, so the result at row r is a function of the two r-th points alone. The subtraction, the
  absolute value and the two comparisons are those of the float instance at hand; on the extended reals they are the
  exact ones, with ∞ - ∞ and comparisons at the infinities as that instance defines them.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- The verdict on one pair of points (x₁, y₁), (x₂, y₂): 0.99 when |x₁ - x₂| < 2 and |y₁ - y₂| ≤ 0.1, else 0.01. -/
def verdict (x1 x2 y1 y2 : F .f32) : F .f32 :=
  Scalar.select
    (IntOp.andi (FloatOps.cmpf .olt (FloatOps.absf (FloatOps.subf x1 x2)) (Scalar.ofBits .f32 0x40000000#32))
      (FloatOps.cmpf .ole (FloatOps.absf (FloatOps.subf y1 y2)) (Scalar.ofBits .f32 0x3DCCCCCD#32)))
    (Scalar.ofBits .f32 0x3F7D70A4#32) (Scalar.ofBits .f32 0x3C23D70A#32)

/-- Row `r` of the result: the verdict on the points in columns 4 and 5 of row `r` of the two tables. -/
def closebyRow (z1 z2 : Vec F ⟨2, ![8388608, 6]⟩ .f32) (r : Fin 8388608) : F .f32 :=
  verdict (z1 (ix2 r 4)) (z2 (ix2 r 4)) (z1 (ix2 r 5)) (z2 (ix2 r 5))

/-- The whole result, index by index. -/
def closeby (z1 z2 : Vec F ⟨2, ![8388608, 6]⟩ .f32) : Vec F ⟨1, ![8388608]⟩ .f32 :=
  fun i => closebyRow z1 z2 (i 0)

theorem closeby_apply (z1 z2 : Vec F ⟨2, ![8388608, 6]⟩ .f32) (r : Fin 8388608) :
    closeby z1 z2 (ix1 r) = closebyRow z1 z2 r := rfl

end Cert.Spec

end
-- ==== Proof.KernelRows.lean ====
/-
  The kernel read row by row.

  The grid has 32 points. Point t works on rows 262144·t … 262144·t + 262143: it reads those rows of each table as
  a 262144 × 6 block and writes that range of the result. Of a block it loads columns 4 and 5 as one-column vectors,
  subtracts, takes absolute values, compares with 2 and with 0.1, joins the comparisons, selects 0.99 or 0.01 and
  flattens the one-column vector: entry p of what it stores is the verdict on the points in row p of the two blocks,
  which are the points in row 262144·t + p of the two tables. The 32 ranges of rows fill the result, so after the run
  the result array is the row-by-row verdict on the two tables.
-/
import proofs.«168923_j2327872275189_1_alg».proof.Proof.Gen.KernelIdeal.Value
import proofs.«168923_j2327872275189_1_alg».proof.Proof.Spec
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## One block -/

/-- Entry `p` of what the body stores, from two blocks `x0`, `x1`: the verdict on the points in row `p` of the
    blocks (columns 4 and 5). -/
theorem stored_row (x0 x1 : Vec F S262144x6 .f32) (p : Fin 262144) :
    out0_2 x0 x1 (ix1 p)
      = Cert.Spec.verdict (x0 (ix2 p 4)) (x1 (ix2 p 4)) (x0 (ix2 p 5)) (x1 (ix2 p 5)) := by
  unfold out0_2
  rw [Cert.KernelIdeal.Value.canon2_eq]
  have e4 : r0_0.idx (Cert.KernelIdeal.Value.ix2_0 (ix1 p)) = ix2 p 4 := by
    funext a; apply Fin.ext
    match a with
    | ⟨0, _⟩ => show 0 + 1 * p.val = p.val; omega
    | ⟨1, _⟩ => show 4 + 1 * 0 = 4; omega
  have e5 : r0_1.idx (Cert.KernelIdeal.Value.ix2_0 (ix1 p)) = ix2 p 5 := by
    funext a; apply Fin.ext
    match a with
    | ⟨0, _⟩ => show 0 + 1 * p.val = p.val; omega
    | ⟨1, _⟩ => show 5 + 1 * 0 = 5; omega
  show Cert.Spec.verdict (x0 (r0_0.idx (Cert.KernelIdeal.Value.ix2_0 (ix1 p)))) (x1 (r0_0.idx (Cert.KernelIdeal.Value.ix2_0 (ix1 p))))
      (x0 (r0_1.idx (Cert.KernelIdeal.Value.ix2_0 (ix1 p)))) (x1 (r0_1.idx (Cert.KernelIdeal.Value.ix2_0 (ix1 p)))) = _
  rw [e4, e5]

/-! ## Which rows a grid point works on -/

/-- At grid point `t` every window's block index along the rows is `t`, and along the columns it is 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- Entry (p, k) of the first table's block at point `t` is entry (262144·t + p, k) of the table. -/
theorem block0_entry (c : Dev nD) (t : Fin cfg0.N) (p : Fin 262144) (k : Fin 6) (r : Fin 8388608)
    (hr : r.val = t.val * 262144 + p.val) :
    (iblk m c 0 t : Vec F S262144x6 .f32) (ix2 p k) = (V m c main_arg0 : Vec F S8388608x6 .f32) (ix2 r k) := by
  obtain ⟨h0, h1, -, -, -⟩ := block_index t
  unfold iblk
  rw [View.read_apply]
  show V m c main_arg0 _ = V m c main_arg0 _
  refine congrArg _ ?_
  funext a; apply Fin.ext
  match a with
  | ⟨0, _⟩ => show win0_0.index t (0 : Fin 2) * 262144 + 1 * p.val = r.val; rw [h0, hr]; omega
  | ⟨1, _⟩ => show win0_0.index t (1 : Fin 2) * 6 + 1 * k.val = k.val; rw [h1]; omega

/-- Entry (p, k) of the second table's block at point `t` is entry (262144·t + p, k) of the table. -/
theorem block1_entry (c : Dev nD) (t : Fin cfg0.N) (p : Fin 262144) (k : Fin 6) (r : Fin 8388608)
    (hr : r.val = t.val * 262144 + p.val) :
    (iblk m c 1 t : Vec F S262144x6 .f32) (ix2 p k) = (V m c main_arg1 : Vec F S8388608x6 .f32) (ix2 r k) := by
  obtain ⟨-, -, h0, h1, -⟩ := block_index t
  unfold iblk
  rw [View.read_apply]
  show V m c main_arg1 _ = V m c main_arg1 _
  refine congrArg _ ?_
  funext a; apply Fin.ext
  match a with
  | ⟨0, _⟩ => show win0_1.index t (0 : Fin 2) * 262144 + 1 * p.val = r.val; rw [h0, hr]; omega
  | ⟨1, _⟩ => show win0_1.index t (1 : Fin 2) * 6 + 1 * k.val = k.val; rw [h1]; omega

/-! ## What a point writes back, and the whole result -/

/-- Point `t` writes back rows 262144·t … 262144·t + 262143 of the row-by-row verdict on the two tables. -/
theorem written_eq (c : Dev nD) (t : Fin cfg0.N) :
    (dats m 0 c).flushed 2 t
      = ((cfg0.win 2).blk t).view.read (Elt F) (Cert.Spec.closeby (V m c main_arg0) (V m c main_arg1)) := by
  have hN : cfg0.N = 32 := N_0
  have ht : t.val < 32 := hN ▸ t.isLt
  obtain ⟨-, -, -, -, h2⟩ := block_index t
  rw [Cert.KernelIdeal.Value.flushed2]
  funext y
  obtain ⟨p, rfl⟩ : ∃ p : Fin 262144, y = ix1 p := ⟨y 0, eq_ix1 y⟩
  have hr : t.val * 262144 + p.val < 8388608 := by have := p.isLt; omega
  show out0_2 (iblk m c 0 t) (iblk m c 1 t) (ix1 p)
      = Cert.Spec.closeby (V m c main_arg0) (V m c main_arg1) (((cfg0.win 2).blk t).view.emb (ix1 p))
  have ei : ((cfg0.win 2).blk t).view.emb (ix1 p) = ix1 (⟨t.val * 262144 + p.val, hr⟩ : Fin 8388608) := by
    funext a; apply Fin.ext
    match a with
    | ⟨0, _⟩ => show win0_2.index t (0 : Fin 1) * 262144 + 1 * p.val = t.val * 262144 + p.val; rw [h2]; omega
  rw [ei, Cert.Spec.closeby_apply]
  refine (stored_row (iblk m c 0 t) (iblk m c 1 t) p).trans ?_
  unfold Cert.Spec.closebyRow
  rw [block0_entry m c t p 4 ⟨t.val * 262144 + p.val, hr⟩ rfl, block0_entry m c t p 5 ⟨t.val * 262144 + p.val, hr⟩ rfl,
    block1_entry m c t p 4 ⟨t.val * 262144 + p.val, hr⟩ rfl, block1_entry m c t p 5 ⟨t.val * 262144 + p.val, hr⟩ rfl]

/-- An index of the result is in point `t`'s block iff its row is one of rows 262144·t … 262144·t + 262143. -/
theorem mem_rows (t : Fin cfg0.N) (i : S8388608.Idx) :
    i ∈ ((cfg0.win 2).blk t).view.set ↔ ∀ a : Fin 1, win0_2.index t a * S262144.size a ≤ (i a).val
      ∧ (i a).val < win0_2.index t a * S262144.size a + S262144.size a := by
  show i ∈ ((View.whole main_v0).slice (win0_2.rect t)).set ↔ _
  rw [View.set_slice_whole, Rect.mem_set_unit]
  exact Iff.rfl

/-- Every row of the result is written by the point numbered (row / 262144). -/
theorem rows_filled (i : S8388608.Idx) :
    ∃ t : Fin cfg0.N, (cfg0.win 2).flush t = true ∧ i ∈ ((cfg0.win 2).blk t).view.set := by
  have hN : cfg0.N = 32 := N_0
  have hi : (i 0).val < 8388608 := (i 0).isLt
  let t : Fin cfg0.N := ⟨(i 0).val / 262144, by rw [hN]; omega⟩
  obtain ⟨-, -, -, -, h2⟩ := block_index t
  have hv : t.val = (i 0).val / 262144 := rfl
  refine ⟨t, flush0_2 t, ?_⟩
  rw [mem_rows]
  intro a
  match a with
  | ⟨0, _⟩ =>
    show win0_2.index t (0 : Fin 1) * 262144 ≤ (i 0).val ∧ (i 0).val < win0_2.index t (0 : Fin 1) * 262144 + 262144
    rw [h2, hv]; omega

/-- After the run the result array is the row-by-row verdict on the two tables as launched. -/
theorem result_eq (c : Dev nD) :
    (dats m 0 c).arrAt 2 cfg0.N
      = Cert.Spec.closeby (m ((c : Thread nD τ).loc main_arg0)) (m ((c : Thread nD τ).loc main_arg1)) :=
  (dats m 0 c).arrAt_eq_of_cover 2 (Cert.Spec.closeby (V m c main_arg0) (V m c main_arg1))
    (fun t _ => written_eq m c t) rows_filled

/-- The run: the result array ends at the row-by-row verdict on the two tables, which end unchanged. -/
theorem run : θ_run defs (onTc (τ := τ) (main (F := F))) ⟨m, fun _ => 0, ρ⟩ fun r => ∀ c : Dev nD,
      r.2.mem ((c : Thread nD τ).loc main_v0)
        = Cert.Spec.closeby (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.KernelIdeal.Rows

end
-- ==== Proof.ReferenceRows.lean ====
/-
  The host program read row by row.

  It slices column 4 (then column 5) out of each table, flattens the one-column slices, subtracts, takes absolute
  values, compares with the thresholds 2 and 0.1 spread over all rows, joins the two comparisons, and selects between
  0.99 and 0.01 spread over all rows. Entry r of a flattened slice of column k is entry (r, k) of the table; the
  comparison, the conjunction and the selection act entry by entry; and on the extended reals the host's absolute
  value is max x (-x), the same function the vector unit's is. So entry r of the host's result is the verdict on the
  points in row r of the two tables.
-/
import proofs.«168923_j2327872275189_1_alg».proof.Proof.Gen.ReferenceIdeal.Read
import proofs.«168923_j2327872275189_1_alg».proof.Proof.Spec

noncomputable section

namespace Cert.ReferenceIdeal.Rows

open Cert.ReferenceIdeal Cert.ReferenceIdeal.Gen Cert.ReferenceIdeal.Read
open Idealize.ShloMosaic Idealize.ShloMosaic.ValueIdx

/-- Entry `r` of a flattened one-column slice taken at column 4 is entry (r, 4) of the table. -/
theorem col4_x0 (r : Fin 8388608) : idx_main_v0 (idx_main_v1 (ix1 r)) = ix2 r 4 := by
  funext a; apply Fin.ext
  match a with
  | ⟨0, _⟩ => show r.val / 1 = r.val; omega
  | ⟨1, _⟩ => rfl

theorem col4_x1 (r : Fin 8388608) : idx_main_v2 (idx_main_v3 (ix1 r)) = ix2 r 4 := by
  funext a; apply Fin.ext
  match a with
  | ⟨0, _⟩ => show r.val / 1 = r.val; omega
  | ⟨1, _⟩ => rfl

/-- Entry `r` of a flattened one-column slice taken at column 5 is entry (r, 5) of the table. -/
theorem col5_x0 (r : Fin 8388608) : idx_main_v6 (idx_main_v7 (ix1 r)) = ix2 r 5 := by
  funext a; apply Fin.ext
  match a with
  | ⟨0, _⟩ => show r.val / 1 = r.val; omega
  | ⟨1, _⟩ => rfl

theorem col5_x1 (r : Fin 8388608) : idx_main_v8 (idx_main_v9 (ix1 r)) = ix2 r 5 := by
  funext a; apply Fin.ext
  match a with
  | ⟨0, _⟩ => show r.val / 1 = r.val; omega
  | ⟨1, _⟩ => rfl

/-- On the extended reals the host's result is the row-by-row verdict on the two tables. -/
theorem result_eq (x0 x1 : (⟨S8388608x6, .f32⟩ : BufTy).Contents (Elt Ideal)) :
    val_main_v17 (F := Ideal) x0 x1 = Cert.Spec.closeby x0 x1 := by
  funext i
  obtain ⟨r, rfl⟩ : ∃ r : Fin 8388608, i = ix1 r := ⟨i 0, eq_ix1 i⟩
  rw [val_main_v17_apply, val_main_v16_apply, val_main_v13_apply, val_main_v15_apply, val_main_v5_apply,
    val_main_v11_apply, val_main_v4_apply, val_main_v10_apply, val_main_v1_apply, val_main_v3_apply,
    val_main_v7_apply, val_main_v9_apply, val_main_v0_apply, val_main_v2_apply, val_main_v6_apply, val_main_v8_apply,
    val_main_v12_apply, val_main_v14_apply, val_main_call0_v0_apply, val_main_call0_v1_apply,
    val_main_cst_apply, val_main_cst_0_apply, val_main_cst_1_apply, val_main_cst_2_apply,
    col4_x0, col4_x1, col5_x0, col5_x1, Ideal.hostAbsf_def, Ideal.hostAbsf_def]
  rfl

end Cert.ReferenceIdeal.Rows

end
-- ==== Proof.lean ====
/-
  Two tables of 8388608 rows hold a point of the plane in columns 4 and 5 of each row. Row r of the result is 0.99
  when the r-th points of the two tables are close — |x₁ - x₂| < 2 and |y₁ - y₂| ≤ 0.1 — and 0.01 otherwise.

  The kernel walks the rows in 32 ranges of 262144 and computes the verdict of each row of a range from one-column
  loads of the two blocks; the host program slices the two columns out of whole tables and computes the verdicts of
  all rows at once. Both use the same four float patterns (2, 0.1, 0.99, 0.01), the same subtraction, comparisons,
  conjunction and selection, and on the extended reals one absolute value, max x (-x). So on the extended reals
  both results are the same row-by-row function of the tables (Spec.lean), whatever the entries are: no law that
  fails at an infinity is used, and the finiteness of the inputs is never needed. The tables are only read, so each
  program ends with them unchanged; the idealized kernel is the kernel's own text read over the extended reals.
-/
import proofs.«168923_j2327872275189_1_alg».proof.Defs
import proofs.«168923_j2327872275189_1_alg».proof.Proof.Gen.Kernel
import proofs.«168923_j2327872275189_1_alg».proof.Proof.Gen.Kernel.Skeleton
import proofs.«168923_j2327872275189_1_alg».proof.Proof.Gen.Kernel.Launch
import proofs.«168923_j2327872275189_1_alg».proof.Proof.Gen.Kernel.Points
import proofs.«168923_j2327872275189_1_alg».proof.Proof.Gen.Kernel.Frame
import proofs.«168923_j2327872275189_1_alg».proof.Proof.Gen.KernelIdeal
import proofs.«168923_j2327872275189_1_alg».proof.Proof.Gen.KernelIdeal.Skeleton
import proofs.«168923_j2327872275189_1_alg».proof.Proof.Gen.KernelIdeal.Launch
import proofs.«168923_j2327872275189_1_alg».proof.Proof.Gen.KernelIdeal.Points
import proofs.«168923_j2327872275189_1_alg».proof.Proof.Gen.KernelIdeal.Frame
import proofs.«168923_j2327872275189_1_alg».proof.Proof.Gen.ReferenceIdeal
import proofs.«168923_j2327872275189_1_alg».proof.Proof.Gen.Pre_finite_inputs
import proofs.«168923_j2327872275189_1_alg».proof.Proof.Gen.KernelIdeal.Value
import proofs.«168923_j2327872275189_1_alg».proof.Proof.Gen.ReferenceIdeal.Run
import proofs.«168923_j2327872275189_1_alg».proof.Proof.Gen.ReferenceIdeal.Read
import proofs.«168923_j2327872275189_1_alg».proof.Proof.KernelRows
import proofs.«168923_j2327872275189_1_alg».proof.Proof.ReferenceRows
import Idealize.ShloMosaic.Adequacy
import Idealize.ShloMosaic.Init

noncomputable section

namespace Cert.Proof

open Idealize.ShloMosaic Idealize.ShloMosaic.TcCoe Idealize.SL.Sem

/-- The kernel only reads the two tables: it runs to the end and leaves them as they were. -/
theorem frame_kernel : @Cert.frame_Kernel Cert.Kernel.Gen.facts Cert.Pre_finite_inputs.Gen.facts :=
  fun m ρ _ => Cert.Kernel.Gen.frame m ρ

/-- The same of the kernel read over the extended reals. -/
theorem frame_kernel_ideal : @Cert.frame_KernelIdeal Cert.KernelIdeal.Gen.facts Cert.Pre_finite_inputs.Gen.facts :=
  fun m ρ _ => Cert.KernelIdeal.Gen.frame m ρ

/-- The host program runs to the end with the two tables unchanged: its run, the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- On the extended reals the kernel's result array and the host's both end at the row-by-row verdict on the two
    tables, which agree at launch: equal results, entry by entry. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.closeby (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Rows.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
